-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S16384x256 .f32 .bf16
  ∧ IdealRules.named_const.Statement Cert.KernelIdeal.κ "c_neg_inv_tau" .f32 0xC1649249#32 ((-134217728 / 9395241 : ℝ) : EReal)
  ∧ IdealRules.named_const.Statement Cert.KernelIdeal.κ "c_two_inv_tau" .f32 0x41E49249#32 ((268435456 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2048x256 : Shape := ⟨2, ![2048, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S16384x256 .f32) (main_arg1 : FVec F S2048x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S16384x256 : Shape := ⟨2, ![16384, 256]⟩
abbrev S2048x256 : Shape := ⟨2, ![2048, 256]⟩
abbrev S1x16384 : Shape := ⟨2, ![1, 16384]⟩
abbrev S1x256 : Shape := ⟨2, ![1, 256]⟩
abbrev S2048x16384 : Shape := ⟨2, ![2048, 16384]⟩
abbrev S256x256 : Shape := ⟨2, ![256, 256]⟩
abbrev S256x16384 : Shape := ⟨2, ![256, 16384]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S2048x256, .f32⟩
  | .hbm, ⟨2, _⟩ => ⟨S1x16384, .f32⟩
  | .hbm, ⟨3, _⟩ => ⟨S16384x256, .bf16⟩
  | .hbm, ⟨4, _⟩ => ⟨S2048x256, .bf16⟩
  | .hbm, ⟨5, _⟩ => ⟨S2048x16384, .f32⟩
  | .local _ .vmem, ⟨0, _⟩ => ⟨S16384x256, .f32⟩
  | .local _ .vmem, ⟨1, _⟩ => ⟨S2048x256, .f32⟩
  | .local _ .vmem, ⟨2, _⟩ => ⟨S1x16384, .f32⟩
  | .local _ .vmem, ⟨3, _⟩ => ⟨S16384x256, .bf16⟩
  | .local _ .vmem, ⟨4, _⟩ => ⟨S2048x256, .bf16⟩
  | .local _ .vmem, ⟨5, _⟩ => ⟨S256x256, .bf16⟩
  | .local _ .vmem, ⟨6, _⟩ => ⟨S256x256, .bf16⟩
  | .local _ .vmem, ⟨7, _⟩ => ⟨S16384x256, .bf16⟩
  | .local _ .vmem, ⟨8, _⟩ => ⟨S1x16384, .f32⟩
  | .local _ .vmem, ⟨9, _⟩ => ⟨S256x16384, .f32⟩
  | .local _ .vmem, ⟨10, _⟩ => ⟨S256x16384, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16384x256_S16384x256_0_0 : ∀ a, (![0, 0] : Fin 2 → Nat) a + S16384x256.size a ≤ S16384x256.size a
  h_S16384x256 : 0 < S16384x256.numel
  bitsLt_bf16_f32 : FTy.bits .bf16 < FTy.bits .f32
  packedbf16_S16384x256_S16384x256_0_0 : (Rect.unit (s := S16384x256) ![0, 0] S16384x256.size inb_S16384x256_S16384x256_0_0).PackedRows (EltTy.packing .bf16)
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1x16384_S1x16384_0_0 : ∀ a, (![0, 0] : Fin 2 → Nat) a + S1x16384.size a ≤ S1x16384.size a
  h_S1x16384 : 0 < S1x16384.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S16384x256_S16384x256 : S16384x256.ShapeCasts S16384x256
  shapeCasts_S1x16384_S1x16384 : S1x16384.ShapeCasts S1x16384
  broadcasts_S1x16384_S256x16384 : S1x16384.Broadcasts S256x16384
  reduces_S256x16384_S256 : S256x16384.Reduces [1] S256
  shapeCasts_S256_S256x1 : S256.ShapeCasts S256x1
  broadcasts_S256x1_S256x16384 : S256x1.Broadcasts S256x16384
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  dot_S1x256_S16384x256_S1x16384_1_1_0_0_n_n_wf : DotDims.WF S1x256 S16384x256 S1x16384 [1] [1] [0] [0] [] []
  dot_S256x256_S16384x256_S256x16384_1_1_0_0_n_n_wf : DotDims.WF S256x256 S16384x256 S256x16384 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x256.size a ≤ S16384x256.size a
  hwx0_0 : ∀ i : grid0.Coords, EltTy.bits .f32 = 32 ∨ (Rect.block (s := S16384x256) S16384x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384x256.size a ≤ S16384x256.size a
  hwx0_3 : ∀ i : grid0.Coords, EltTy.bits .bf16 = 32 ∨ (Rect.block (s := S16384x256) S16384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .bf16 = 32 ∨ (Rect.block (s := S2048x256) S2048x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S2048x256.size a
  hwx1_0 : ∀ i : grid1.Coords, EltTy.bits .bf16 = 32 ∨ (Rect.block (s := S2048x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x16384.size a
  hwx1_2 : ∀ i : grid1.Coords, EltTy.bits .f32 = 32 ∨ (Rect.block (s := S1x16384) S1x16384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x16384.size a ≤ S2048x16384.size a
  hwx1_3 : ∀ i : grid1.Coords, EltTy.bits .f32 = 32 ∨ (Rect.block (s := S2048x16384) S256x16384.size (cc1_transform_3 i) (hinb1_3 i)).WholeWords (EltTy.packing .f32)

variable [Facts₀]

def dot_S1x256_S16384x256_S1x16384_1_1_0_0_n_n : DotDims S1x256 S16384x256 S1x16384 where
  lhsContracting := [1]
  rhsContracting := [1]
  lhsNonContracting := [0]
  rhsNonContracting := [0]
  lhsBatch := []
  rhsBatch := []
  wf := dot_S1x256_S16384x256_S1x16384_1_1_0_0_n_n_wf
def dot_S256x256_S16384x256_S256x16384_1_1_0_0_n_n : DotDims S256x256 S16384x256 S256x16384 where
  lhsContracting := [1]
  rhsContracting := [1]
  lhsNonContracting := [0]
  rhsNonContracting := [0]
  lhsBatch := []
  rhsBatch := []
  wf := dot_S256x256_S16384x256_S256x16384_1_1_0_0_n_n_wf

abbrev win0_0 : Pipeline.Window sig grid0 :=
  Pipeline.Window.ofSpec (Memref.whole main_arg0) S16384x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x16384.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16384x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S2048x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_2) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x16384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x256 : Shape := ⟨2, ![16384, 256]⟩
abbrev S2048x256 : Shape := ⟨2, ![2048, 256]⟩
abbrev S_ : Shape := ⟨0, ![]⟩
abbrev S16384 : Shape := ⟨1, ![16384]⟩
abbrev S2048 : Shape := ⟨1, ![2048]⟩
abbrev S2048x1 : Shape := ⟨2, ![2048, 1]⟩
abbrev S1x16384 : Shape := ⟨2, ![1, 16384]⟩
abbrev S2048x16384 : Shape := ⟨2, ![2048, 16384]⟩
abbrev S256x16384 : Shape := ⟨2, ![256, 16384]⟩

abbrev nBuf : Space → Nat
  | .hbm => 37
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2048x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S2048x256, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S1x16384, .f32⟩
  | .hbm, ⟨10, _⟩ => ⟨S2048x16384, .f32⟩
  | .hbm, ⟨11, _⟩ => ⟨S2048x16384, .f32⟩
  | .hbm, ⟨12, _⟩ => ⟨S2048x16384, .f32⟩
  | .hbm, ⟨13, _⟩ => ⟨S256x16384, .f32⟩
  | .hbm, ⟨14, _⟩ => ⟨S2048x16384, .f32⟩
  | .hbm, ⟨15, _⟩ => ⟨S_, .f32⟩
  | .hbm, ⟨16, _⟩ => ⟨S2048x16384, .f32⟩
  | .hbm, ⟨17, _⟩ => ⟨S2048x16384, .f32⟩
  | .hbm, ⟨18, _⟩ => ⟨S2048x16384, .f32⟩
  | .hbm, ⟨19, _⟩ => ⟨S2048x16384, .f32⟩
  | .hbm, ⟨20, _⟩ => ⟨S_, .f32⟩
  | .hbm, ⟨21, _⟩ => ⟨S2048x16384, .f32⟩
  | .hbm, ⟨22, _⟩ => ⟨S2048x16384, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x1, .f32⟩
  | .hbm, ⟨29, _⟩ => ⟨S2048x16384, .f32⟩
  | .hbm, ⟨30, _⟩ => ⟨S2048x16384, .f32⟩
  | .hbm, ⟨31, _⟩ => ⟨S2048x16384, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x16384, .f32⟩
  | .hbm, ⟨36, _⟩ => ⟨S2048x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  reducesTo_S2048x256_S2048_d1 : S2048x256.ReducesTo [1] S2048
  bcast_S2048_S2048x1_0 : S2048.BroadcastsInDim S2048x1 (![0] : Fin 1 → Fin S2048x1.rank)
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  transposes_S16384x256_S256x16384_1_0 : S16384x256.Transposes [1, 0] S256x16384
  bcast_S_S2048x16384 : S_.BroadcastsInDim S2048x16384 (![] : Fin 0 → Fin S2048x16384.rank)
  reducesTo_S2048x16384_S2048_d1 : S2048x16384.ReducesTo [1] S2048
  bcast_S_S2048 : S_.BroadcastsInDim S2048 (![] : Fin 0 → Fin S2048.rank)
  dot_S2048x256_S256x16384_S2048x16384_1_0_0_1_n_n_wf : DotDims.WF S2048x256 S256x16384 S2048x16384 [1] [0] [0] [1] [] []

variable [Facts₀]

def dot_S2048x256_S256x16384_S2048x16384_1_0_0_1_n_n : DotDims S2048x256 S256x16384 S2048x16384 where
  lhsContracting := [1]
  rhsContracting := [0]
  lhsNonContracting := [0]
  rhsNonContracting := [1]
  lhsBatch := []
  rhsBatch := []
  wf := dot_S2048x256_S256x16384_S2048x16384_1_0_0_1_n_n_wf

class Facts : Prop extends Facts₀ where

variable [Facts]
-- ==== Proof.KernelRun.lean ====
/-
  The kernel program's run with its result NAMED.

  The program is two launches in a row: the first computes the per-key bias row and the two narrowed copies of the
  arguments, the second the softmax rows block by block. Every weakly fair execution terminates without a fault, and
  at the end the result array holds what the second launch's write-backs leave (the fold of its eight blocks into
  the array the first launch left), while both arguments are as launched. The buffer contents at the two boundaries
  are the generated frame's `W1` (after the first launch) and `W2` (after the second).
-/
import proofs.«180964_g89026082111828_cont_sun_m_356_27_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches terminates, nothing faulting; the result array ends at the
    second boundary's contents and the two arguments as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

/-- The result array at the second boundary is what the second launch's write-backs leave. -/
theorem W2_main_v1 (c : Dev nD) :
    W2 m ρ c (Proc.devRef .tc main_v1) = (dat1 (V1 m ρ) c).arrAt 3 cfg1.N := W2_arr m ρ c 3

end Cert.KernelIdeal.Out

end
-- ==== Proof.Region0.lean ====
/-
  What the first launch leaves in its three result arrays.

  The first launch has a single grid point whose blocks are the whole arrays, so each result array ends holding the
  body's stored value computed from the whole argument arrays: the bias row from the keys, and the keys and the
  queries narrowed to the short float format.
-/
import proofs.«180964_g89026082111828_cont_sun_m_356_27_alg».proof.Proof.Gen.KernelIdeal.Frame
import Idealize.ShloMosaic.Lib.Pipeline.Value

set_option maxRecDepth 16384

noncomputable section

namespace Cert.KernelIdeal.Out

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The zero offsets of a whole-buffer access, as a constant function. -/
theorem hz : (![0, 0] : Fin 2 → Nat) = fun _ => 0 := funext fun a => by fin_cases a <;> rfl

/-- At the first launch's one grid point every window's block index is zero on both axes. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The keys' block at the point is the whole keys array. -/
theorem iblk0_keys (c : Dev nD) (t : Fin cfg0.N) :
    (iblk0 V c 0 t : S16384x256.Idx → Elt F .f32) = V c main_arg0 := by
  funext j
  show V c main_arg0 (((cfg0.win 0).blk t).view.emb j) = V c main_arg0 j
  refine congrArg _ (funext fun a => Fin.ext ?_)
  obtain ⟨e0, e1, -⟩ := idx0 t
  match a with
  | ⟨0, _⟩ => show win0_0.index t (0 : Fin 2) * 16384 + 1 * (j 0).val = (j 0).val; omega
  | ⟨1, _⟩ => show win0_0.index t (1 : Fin 2) * 256 + 1 * (j 1).val = (j 1).val; omega

/-- The queries' block at the point is the whole queries array. -/
theorem iblk0_queries (c : Dev nD) (t : Fin cfg0.N) :
    (iblk0 V c 1 t : S2048x256.Idx → Elt F .f32) = V c main_arg1 := by
  funext j
  show V c main_arg1 (((cfg0.win 1).blk t).view.emb j) = V c main_arg1 j
  refine congrArg _ (funext fun a => Fin.ext ?_)
  obtain ⟨-, -, e0, e1, -⟩ := idx0 t
  match a with
  | ⟨0, _⟩ => show win0_1.index t (0 : Fin 2) * 2048 + 1 * (j 0).val = (j 0).val; omega
  | ⟨1, _⟩ => show win0_1.index t (1 : Fin 2) * 256 + 1 * (j 1).val = (j 1).val; omega

/-- What the point writes back into the bias row: the bias payload of the whole keys array. -/
theorem flushed0_bias (c : Dev nD) (t : Fin cfg0.N) :
    (dat0 V c).flushed 2 t = ((cfg0.win 2).blk t).view.read (Elt F) (k0_pay3 (V c main_arg0)) := by
  show (cfg0.win 2).cut (grid0.coords t) ((dat0 V c).after 2 t) = _
  rw [after0_2]
  unfold out0_2
  rw [View.canon_unit_zero hz]
  simp only [View.ld_unit_zero (S := S16384x256) hz]
  funext j
  show k0_pay3 (iblk0 V c 0 t) j = k0_pay3 (V c main_arg0) (((cfg0.win 2).blk t).view.emb j)
  have e : ((cfg0.win 2).blk t).view.emb j = j := by
    funext a; apply Fin.ext
    obtain ⟨-, -, -, -, e0, e1, -⟩ := idx0 t
    match a with
    | ⟨0, _⟩ => show win0_2.index t (0 : Fin 2) * 1 + 1 * (j 0).val = (j 0).val; omega
    | ⟨1, _⟩ => show win0_2.index t (1 : Fin 2) * 16384 + 1 * (j 1).val = (j 1).val; omega
  rw [e]
  exact congrFun (congrArg k0_pay3 (iblk0_keys V c t)) j

/-- What the point writes back into the narrowed keys: the narrowing payload of the whole keys array. -/
theorem flushed0_keys (c : Dev nD) (t : Fin cfg0.N) :
    (dat0 V c).flushed 3 t = ((cfg0.win 3).blk t).view.read (Elt F) (k0_pay1 (V c main_arg0)) := by
  show (cfg0.win 3).cut (grid0.coords t) ((dat0 V c).after 3 t) = _
  rw [after0_3]
  unfold out0_3
  rw [View.canon_unit_zero hz]
  simp only [View.ld_unit_zero (S := S16384x256) hz]
  funext j
  show k0_pay1 (iblk0 V c 0 t) j = k0_pay1 (V c main_arg0) (((cfg0.win 3).blk t).view.emb j)
  have e : ((cfg0.win 3).blk t).view.emb j = j := by
    funext a; apply Fin.ext
    obtain ⟨-, -, -, -, -, -, e0, e1, -⟩ := idx0 t
    match a with
    | ⟨0, _⟩ => show win0_3.index t (0 : Fin 2) * 16384 + 1 * (j 0).val = (j 0).val; omega
    | ⟨1, _⟩ => show win0_3.index t (1 : Fin 2) * 256 + 1 * (j 1).val = (j 1).val; omega
  rw [e]
  exact congrFun (congrArg k0_pay1 (iblk0_keys V c t)) j

/-- What the point writes back into the narrowed queries: the narrowing payload of the whole queries array. -/
theorem flushed0_queries (c : Dev nD) (t : Fin cfg0.N) :
    (dat0 V c).flushed 4 t = ((cfg0.win 4).blk t).view.read (Elt F) (k0_pay2 (V c main_arg1)) := by
  show (cfg0.win 4).cut (grid0.coords t) ((dat0 V c).after 4 t) = _
  rw [after0_4]
  unfold out0_4
  rw [View.canon_unit_zero hz]
  simp only [View.ld_unit_zero (S := S2048x256) hz]
  funext j
  show k0_pay2 (iblk0 V c 1 t) j = k0_pay2 (V c main_arg1) (((cfg0.win 4).blk t).view.emb j)
  have e : ((cfg0.win 4).blk t).view.emb j = j := by
    funext a; apply Fin.ext
    obtain ⟨-, -, -, -, -, -, -, -, e0, e1⟩ := idx0 t
    match a with
    | ⟨0, _⟩ => show win0_4.index t (0 : Fin 2) * 2048 + 1 * (j 0).val = (j 0).val; omega
    | ⟨1, _⟩ => show win0_4.index t (1 : Fin 2) * 256 + 1 * (j 1).val = (j 1).val; omega
  rw [e]
  exact congrFun (congrArg k0_pay2 (iblk0_queries V c t)) j

/-- The one block of the bias row covers it. -/
theorem cover0_bias (i : S1x16384.Idx) :
    ∃ t : Fin cfg0.N, (cfg0.win 2).flush t = true ∧ i ∈ ((cfg0.win 2).blk t).view.set := by
  refine ⟨t0_0, flush0_2 t0_0, ?_⟩
  show i ∈ ((View.whole main_v0_0).slice (win0_2.rect t0_0)).set
  rw [View.set_slice_whole, Rect.mem_set_unit]
  obtain ⟨-, -, -, -, e0, e1, -⟩ := idx0 t0_0
  intro a
  have h0 : (i 0).val < 1 := (i 0).isLt
  have h1 : (i 1).val < 16384 := (i 1).isLt
  match a with
  | ⟨0, _⟩ => show win0_2.index t0_0 (0 : Fin 2) * 1 ≤ (i 0).val ∧ (i 0).val < win0_2.index t0_0 (0 : Fin 2) * 1 + 1; omega
  | ⟨1, _⟩ => show win0_2.index t0_0 (1 : Fin 2) * 16384 ≤ (i 1).val ∧ (i 1).val < win0_2.index t0_0 (1 : Fin 2) * 16384 + 16384; omega

/-- The one block of the narrowed keys covers them. -/
theorem cover0_keys (i : S16384x256.Idx) :
    ∃ t : Fin cfg0.N, (cfg0.win 3).flush t = true ∧ i ∈ ((cfg0.win 3).blk t).view.set := by
  refine ⟨t0_0, flush0_3 t0_0, ?_⟩
  show i ∈ ((View.whole main_v0_1).slice (win0_3.rect t0_0)).set
  rw [View.set_slice_whole, Rect.mem_set_unit]
  obtain ⟨-, -, -, -, -, -, e0, e1, -⟩ := idx0 t0_0
  intro a
  have h0 : (i 0).val < 16384 := (i 0).isLt
  have h1 : (i 1).val < 256 := (i 1).isLt
  match a with
  | ⟨0, _⟩ => show win0_3.index t0_0 (0 : Fin 2) * 16384 ≤ (i 0).val ∧ (i 0).val < win0_3.index t0_0 (0 : Fin 2) * 16384 + 16384; omega
  | ⟨1, _⟩ => show win0_3.index t0_0 (1 : Fin 2) * 256 ≤ (i 1).val ∧ (i 1).val < win0_3.index t0_0 (1 : Fin 2) * 256 + 256; omega

/-- The one block of the narrowed queries covers them. -/
theorem cover0_queries (i : S2048x256.Idx) :
    ∃ t : Fin cfg0.N, (cfg0.win 4).flush t = true ∧ i ∈ ((cfg0.win 4).blk t).view.set := by
  refine ⟨t0_0, flush0_4 t0_0, ?_⟩
  show i ∈ ((View.whole main_v0_2).slice (win0_4.rect t0_0)).set
  rw [View.set_slice_whole, Rect.mem_set_unit]
  obtain ⟨-, -, -, -, -, -, -, -, e0, e1⟩ := idx0 t0_0
  intro a
  have h0 : (i 0).val < 2048 := (i 0).isLt
  have h1 : (i 1).val < 256 := (i 1).isLt
  match a with
  | ⟨0, _⟩ => show win0_4.index t0_0 (0 : Fin 2) * 2048 ≤ (i 0).val ∧ (i 0).val < win0_4.index t0_0 (0 : Fin 2) * 2048 + 2048; omega
  | ⟨1, _⟩ => show win0_4.index t0_0 (1 : Fin 2) * 256 ≤ (i 1).val ∧ (i 1).val < win0_4.index t0_0 (1 : Fin 2) * 256 + 256; omega

/-- After the first launch the bias row is the bias payload of the keys. -/
theorem arr0_bias (c : Dev nD) : (dat0 V c).arrAt 2 cfg0.N = k0_pay3 (V c main_arg0) :=
  (dat0 V c).arrAt_eq_of_cover 2 _ (fun t _ => flushed0_bias V c t) cover0_bias

/-- After the first launch the narrowed keys are the narrowing payload of the keys. -/
theorem arr0_keys (c : Dev nD) : (dat0 V c).arrAt 3 cfg0.N = k0_pay1 (V c main_arg0) :=
  (dat0 V c).arrAt_eq_of_cover 3 _ (fun t _ => flushed0_keys V c t) cover0_keys

/-- After the first launch the narrowed queries are the narrowing payload of the queries. -/
theorem arr0_queries (c : Dev nD) : (dat0 V c).arrAt 4 cfg0.N = k0_pay2 (V c main_arg1) :=
  (dat0 V c).arrAt_eq_of_cover 4 _ (fun t _ => flushed0_queries V c t) cover0_queries

end Cert.KernelIdeal.Out

end
-- ==== Proof.Spec.lean ====
/-
  The mathematics of the claim, stated once over the extended reals and independent of either program.

  For keys `X : [16384, 256]` and queries `Y : [2048, 256]` and the temperature `τ` (the binary fraction
  9395241 / 2^27 that the reference divides by), both programs compute the row-stochastic map
  `P[q, k] = softmax_k (-‖Y_q - X_k‖² / τ)`.

  * The kernel drops the term `‖Y_q‖² / τ`, which is constant along a row: its logits are
    `(Y_q · X_k) · (2/τ) + ‖X_k‖² · (-1/τ)`, its row maximum a fold of `max` from `-∞`, and it multiplies each
    exponential by the reciprocal of the row's sum (`G`).
  * The reference keeps the term: its logits are `-((‖Y_q‖² + ‖X_k‖²) - 2 · (Y_q · X_k)) / τ`, and it divides each
    exponential by the row's sum (`Gref`).

  On real (finite) inputs the two logits differ by a constant along each row, the softmax is invariant under
  such a shift, and the two functions agree (SoftmaxLaw.lean).
-/
import Idealize.ShloMosaic.PureOps.Ideal
import Idealize.ShloMosaic.PureOps.Ideal.Laws
import Idealize.ShloMosaic.Lib.ValueIdx

noncomputable section

open scoped BigOperators

namespace Cert.Softmax

open Idealize.ShloMosaic Idealize.ShloMosaic.ValueIdx

/-- The keys' shape, the queries' shape and the result's shape. -/
abbrev SX : Shape := ⟨2, ![16384, 256]⟩
abbrev SY : Shape := ⟨2, ![2048, 256]⟩
abbrev SO : Shape := ⟨2, ![2048, 16384]⟩

/-- The temperature the reference divides by: the binary fraction nearest 0.07. -/
def tau : EReal := ((9395241 / 134217728 : ℝ) : EReal)
/-- `2 / τ`, the scale of the inner products in the kernel's logits. -/
def cTwo : EReal := ((268435456 / 9395241 : ℝ) : EReal)
/-- `-1 / τ`, the scale of the keys' squared norms in the kernel's logits. -/
def cNeg : EReal := ((-134217728 / 9395241 : ℝ) : EReal)

/-- The inner product of query `q` and key `k`. -/
def dotYX (X : SX.Idx → EReal) (Y : SY.Idx → EReal) (q : Fin 2048) (k : Fin 16384) : EReal :=
  ∑ d : Fin 256, Y (ix2 q d) * X (ix2 k d)

/-! ## The kernel's form -/

/-- The kernel's bias of key `k`: the squared norm of `X_k` — as a sum of the squares plus a sum of the differences of each
    square with itself, which is how the kernel's two matrix passes read once a change of format is the identity — times `-1/τ`. -/
def bias (X : SX.Idx → EReal) (k : Fin 16384) : EReal :=
  ((∑ d : Fin 256, X (ix2 k d) * X (ix2 k d))
    + ∑ d : Fin 256, (X (ix2 k d) * X (ix2 k d) - X (ix2 k d) * X (ix2 k d))) * cNeg

/-- The kernel's logit of query `q` against key `k`. -/
def logit (X : SX.Idx → EReal) (Y : SY.Idx → EReal) (q : Fin 2048) (k : Fin 16384) : EReal :=
  dotYX X Y q k * cTwo + bias X k

/-- The kernel's maximum of row `q`: the fold of `max` from `-∞` over the keys. -/
def rowMax (X : SX.Idx → EReal) (Y : SY.Idx → EReal) (q : Fin 2048) : EReal :=
  (Finset.univ : Finset (Fin 16384)).fold max ⊥ (fun k => logit X Y q k)

/-- The kernel's result: each shifted exponential times the reciprocal of the row's sum of them. -/
def G (X : SX.Idx → EReal) (Y : SY.Idx → EReal) : SO.Idx → EReal := fun i =>
  Ideal.exp (logit X Y (i 0) (i 1) - rowMax X Y (i 0))
    * Ideal.div 1 (∑ k : Fin 16384, Ideal.exp (logit X Y (i 0) k - rowMax X Y (i 0)))

/-! ## The reference's form -/

/-- The squared norm of key `k` and of query `q`, each summed from `0`. -/
def sqX (X : SX.Idx → EReal) (k : Fin 16384) : EReal := 0 + ∑ d : Fin 256, X (ix2 k d) * X (ix2 k d)
def sqY (Y : SY.Idx → EReal) (q : Fin 2048) : EReal := 0 + ∑ d : Fin 256, Y (ix2 q d) * Y (ix2 q d)

/-- The reference's logit: minus the squared distance, over `τ`. -/
def rlogit (X : SX.Idx → EReal) (Y : SY.Idx → EReal) (q : Fin 2048) (k : Fin 16384) : EReal :=
  Ideal.div (-((sqY Y q + sqX X k) - 2 * dotYX X Y q k)) tau

/-- The reference's maximum of row `q`: `max` of `-∞` and the fold of `max` from `-∞`. -/
def rrowMax (X : SX.Idx → EReal) (Y : SY.Idx → EReal) (q : Fin 2048) : EReal :=
  max ⊥ ((Finset.univ : Finset (Fin 16384)).fold max ⊥ (fun k => rlogit X Y q k))

/-- The reference's result: each shifted exponential over the row's sum of them (summed from `0`). -/
def Gref (X : SX.Idx → EReal) (Y : SY.Idx → EReal) : SO.Idx → EReal := fun i =>
  Ideal.div (Ideal.exp (rlogit X Y (i 0) (i 1) - rrowMax X Y (i 0)))
    (0 + ∑ k : Fin 16384, Ideal.exp (rlogit X Y (i 0) k - rrowMax X Y (i 0)))

/-! ## The float literals the two programs carry, as extended reals -/

theorem ofBits_one_f32 : Ideal.ofBits .f32 0x3F800000#32 = 1 := by
  simp [Ideal.ofBits, Ideal.ieee, -EReal.coe_mul]; norm_num
theorem ofBits_one_bf16 : Ideal.ofBits .bf16 0x3F80#16 = 1 := by
  simp [Ideal.ofBits, Ideal.ieee, -EReal.coe_mul]; norm_num
theorem ofBits_two_f32 : Ideal.ofBits .f32 0x40000000#32 = 2 := by
  simp [Ideal.ofBits, Ideal.ieee, -EReal.coe_mul]; norm_num; rfl
theorem ofBits_neg_inf_f32 : Ideal.ofBits .f32 0xFF800000#32 = ⊥ := by
  simp [Ideal.ofBits, Ideal.ieee]
theorem ofBits_tau_f32 : Ideal.ofBits .f32 0x3D8F5C29#32 = tau := by
  unfold tau
  simp [Ideal.ofBits, Ideal.ieee, -EReal.coe_mul]; norm_num

end Cert.Softmax

end
-- ==== Proof.LibColumn.lean ====
/-
  Keepdims columns: a vector of length `a` cast to the one-column matrix `[a, 1]`, and a one-column matrix
  `[a, 1]` broadcast along its rows to `[a, b]`, each read at an index given by its coordinates. (A row-wise
  reduction kept as a column and broadcast back over the row — a row maximum or a row sum subtracted from or
  divided into every entry of the row — is read through these two.)
-/
import Idealize.ShloMosaic.Lib.ValueIdx
import Idealize.ShloMosaic.Lib.Pipeline.Value

noncomputable section

namespace Cert.LibColumn

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.PaySoftmax.lean ====
/-
  The second kernel body's stored value, read at one index.

  On a block of 256 query rows the body forms the logits `(Y_p · X_k) · (2/τ) + bias_k`, takes each row's
  maximum as a fold of `max` from `-∞`, exponentiates the shifted logits, sums each row, and multiplies each
  exponential by the reciprocal of its row's sum.  Read at `(p, k)`, with every layout operation resolved to
  the coordinates it reads, the stored value is the softmax of row `p` of the block's logits at key `k`.
-/
import proofs.«180964_g89026082111828_cont_sun_m_356_27_alg».proof.Proof.Gen.KernelIdeal.Skeleton
import proofs.«180964_g89026082111828_cont_sun_m_356_27_alg».proof.Proof.Spec
import proofs.«180964_g89026082111828_cont_sun_m_356_27_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx Cert.LibColumn

/-! ## The block's logits -/

/-- A block's logit of local query row p against key k: the inner product times 2/τ plus the key's bias. -/
def blockLogit (y : Vec Ideal S256x256 .bf16) (x : Vec Ideal S16384x256 .bf16) (b : Vec Ideal S1x16384 .f32)
    (p : Fin 256) (k : Fin 16384) : EReal :=
  (∑ d : Fin 256, y (ix2 p d) * x (ix2 k d)) * Cert.Softmax.cTwo + b (ix2 (0 : Fin 1) k)

/-- The left operand's index at output `i`: its axis 0 is the output's axis 0. -/
theorem lhs_0 (i : S256x16384.Idx) (q : dot_S256x256_S16384x256_S256x16384_1_1_0_0_n_n.contr.Idx) :
    (dot_S256x256_S16384x256_S256x16384_1_1_0_0_n_n.lhsIdx i q 0).val = (i 0).val := by
  unfold DotDims.lhsIdx
  rw [dif_neg (show ¬(0 : Fin S256x256.rank) ∈ dot_S256x256_S16384x256_S256x16384_1_1_0_0_n_n.lhsBatch by decide),
    dif_pos (show (0 : Fin S256x256.rank) ∈ dot_S256x256_S16384x256_S256x16384_1_1_0_0_n_n.lhsNonContracting by decide)]
  rfl
/-- Its axis 1 is contracted. -/
theorem lhs_1 (i : S256x16384.Idx) (q : dot_S256x256_S16384x256_S256x16384_1_1_0_0_n_n.contr.Idx) :
    (dot_S256x256_S16384x256_S256x16384_1_1_0_0_n_n.lhsIdx i q 1).val = (q ⟨0, by decide⟩).val :=
  dot_S256x256_S16384x256_S256x16384_1_1_0_0_n_n.lhsIdx_val_of_single rfl i q
/-- The right operand's index at output `i`: its axis 0 is the output's axis 1. -/
theorem rhs_0 (i : S256x16384.Idx) (q : dot_S256x256_S16384x256_S256x16384_1_1_0_0_n_n.contr.Idx) :
    (dot_S256x256_S16384x256_S256x16384_1_1_0_0_n_n.rhsIdx i q 0).val = (i 1).val := by
  unfold DotDims.rhsIdx
  rw [dif_neg (show ¬(0 : Fin S16384x256.rank) ∈ dot_S256x256_S16384x256_S256x16384_1_1_0_0_n_n.rhsBatch by decide),
    dif_pos (show (0 : Fin S16384x256.rank) ∈ dot_S256x256_S16384x256_S256x16384_1_1_0_0_n_n.rhsNonContracting by decide)]
  rfl
/-- Its axis 1 is contracted. -/
theorem rhs_1 (i : S256x16384.Idx) (q : dot_S256x256_S16384x256_S256x16384_1_1_0_0_n_n.contr.Idx) :
    (dot_S256x256_S16384x256_S256x16384_1_1_0_0_n_n.rhsIdx i q 1).val = (q ⟨0, by decide⟩).val :=
  dot_S256x256_S16384x256_S256x16384_1_1_0_0_n_n.rhsIdx_val_of_single rfl i q

/-- The matrix product into zero, read at `(p, k)`: the inner product of row `p` and row `k`. -/
theorem dot_at (y : FVec Ideal S256x256 .bf16) (x : FVec Ideal S16384x256 .bf16) (p : Fin 256) (k : Fin 16384) :
    matmul dot_S256x256_S16384x256_S256x16384_1_1_0_0_n_n none y x (constant S256x16384 .f32 0x00000000#32) (ix2 p k)
      = ∑ d : Fin 256, y (ix2 p d) * x (ix2 k d) := by
  simp only [matmul]
  rw [Ideal.matmul_constant_zero_apply,
    ← Equiv.sum_comp (ValueIdx.contrEquiv1 dot_S256x256_S16384x256_S256x16384_1_1_0_0_n_n 256 rfl rfl).symm]
  refine Finset.sum_congr rfl fun d _ => ?_
  have hk := ValueIdx.contrEquiv1_symm_val dot_S256x256_S16384x256_S256x16384_1_1_0_0_n_n 256 rfl rfl d
  have el : dot_S256x256_S16384x256_S256x16384_1_1_0_0_n_n.lhsIdx (ix2 p k) ((ValueIdx.contrEquiv1 dot_S256x256_S16384x256_S256x16384_1_1_0_0_n_n 256 rfl rfl).symm d) = ix2 p d :=
    funext fun a => Fin.ext (by
      match a with
      | ⟨0, _⟩ => exact lhs_0 _ _
      | ⟨1, _⟩ => exact (lhs_1 _ _).trans hk)
  have er : dot_S256x256_S16384x256_S256x16384_1_1_0_0_n_n.rhsIdx (ix2 p k) ((ValueIdx.contrEquiv1 dot_S256x256_S16384x256_S256x16384_1_1_0_0_n_n 256 rfl rfl).symm d) = ix2 k d :=
    funext fun a => Fin.ext (by
      match a with
      | ⟨0, _⟩ => exact rhs_0 _ _
      | ⟨1, _⟩ => exact (rhs_1 _ _).trans hk)
  rw [el, er]

/-- The named scale of the inner products is `2/τ`. -/
theorem named_cTwo : (Named.named κ "c_two_inv_tau" 0x41E49249#32 : Ideal .f32) = Cert.Softmax.cTwo := by
  unfold Cert.Softmax.cTwo
  exact IdealRules.named_const.ideal_named_scalar _ _ _ _ rfl

/-- The block's logits as the body computes them. -/
def logitsVec (v0 : Vec Ideal S256x256 .bf16) (v2 : Vec Ideal S16384x256 .bf16) (v7 : Vec Ideal S1x16384 .f32) :
    FVec Ideal S256x16384 .f32 :=
  have v1 : FVec Ideal S256x256 .bf16 := shapeCast S256x256 v0 shapeCasts_S256x256_S256x256
  have v3 : FVec Ideal S16384x256 .bf16 := shapeCast S16384x256 v2 shapeCasts_S16384x256_S16384x256
  have cst : FVec Ideal S256x16384 .f32 := constant S256x16384 .f32 0x00000000#32
  have v4 : FVec Ideal S256x16384 .f32 := matmul dot_S256x256_S16384x256_S256x16384_1_1_0_0_n_n none v1 v3 cst
  have cst_3 : Ideal .f32 := Named.named κ "c_two_inv_tau" 0x41E49249#32
  have v5 : FVec Ideal S256x16384 .f32 := broadcast S256x16384 cst_3
  have v6 : FVec Ideal S256x16384 .f32 := mulf v4 v5
  have v8 : FVec Ideal S1x16384 .f32 := shapeCast S1x16384 v7 shapeCasts_S1x16384_S1x16384
  have v9 : FVec Ideal S256x16384 .f32 := broadcastTo S256x16384 v8 broadcasts_S1x16384_S256x16384
  have v10 : FVec Ideal S256x16384 .f32 := addf v6 v9
  v10

/-- The block's logits read at `(p, k)`. -/
theorem logits_at (y : Vec Ideal S256x256 .bf16) (x : Vec Ideal S16384x256 .bf16) (b : Vec Ideal S1x16384 .f32)
    (p : Fin 256) (k : Fin 16384) : logitsVec y x b (ix2 p k) = blockLogit y x b p k := by
  unfold logitsVec blockLogit
  rw [shapeCast_self, shapeCast_self, shapeCast_self]
  show matmul dot_S256x256_S16384x256_S256x16384_1_1_0_0_n_n none y x (constant S256x16384 .f32 0x00000000#32) (ix2 p k)
      * (Named.named κ "c_two_inv_tau" 0x41E49249#32 : Ideal .f32)
      + broadcastTo S256x16384 b broadcasts_S1x16384_S256x16384 (ix2 p k) = _
  rw [dot_at, named_cTwo, broadcastTo_1b_ab_apply]

/-! ## A row's maximum and a row's sum -/

/-- The index over row `p` with `k` on the reduced axis is `(p, k)`. -/
theorem lift_ix1 (h : S256x16384.Reduces [1] S256) (p : Fin 256) (k : Fin 16384) :
    h.lift (ix1 p) k = ix2 p k :=
  funext fun a => Fin.ext (by match a with | ⟨0, _⟩ => rfl | ⟨1, _⟩ => rfl)

/-- The reduction by `max` along the keys, read at row `p`: the fold of `max` from `-∞` over the row. -/
theorem rowMax_at (src : FVec Ideal S256x16384 .f32) (h : S256x16384.Reduces [1] S256) (hφ : FKind.Formats .f32)
    (hacc : (0xFF800000#32 : BitVec (FTy.bits .f32)) = FKind.maximumf.neutral .f32 hφ) (p : Fin 256) :
    multiReduction .maximumf [1] S256 src 0xFF800000#32 h hφ hacc (ix1 p)
      = (Finset.univ : Finset (Fin 16384)).fold max ⊥ (fun k => src (ix2 p k)) := by
  refine (Ideal.multiReduction_maximumf_single src _ h hφ hacc (ix1 p)).trans ?_
  show (Finset.univ : Finset (Fin 16384)).fold max (Ideal.ofBits .f32 0xFF800000#32) (src ∘ h.lift (ix1 p)) = _
  rw [Cert.Softmax.ofBits_neg_inf_f32]
  exact congrArg (Finset.univ.fold max ⊥) (funext fun k => congrArg src (lift_ix1 h p k))

/-- The reduction by `+` along the keys, read at row `p`: the sum over the row. -/
theorem rowSum_at (src : FVec Ideal S256x16384 .f32) (h : S256x16384.Reduces [1] S256) (hφ : FKind.Formats .f32)
    (hacc : (0x00000000#32 : BitVec (FTy.bits .f32)) = FKind.add.neutral .f32 hφ) (p : Fin 256) :
    multiReduction .add [1] S256 src 0x00000000#32 h hφ hacc (ix1 p) = ∑ k : Fin 16384, src (ix2 p k) := by
  refine (Ideal.multiReduction_add_single src _ h hφ hacc (ix1 p)).trans ?_
  exact Finset.sum_congr rfl fun k _ => congrArg src (lift_ix1 h p k)

/-! ## The two payloads read at an index -/

/-- The first stored value at `(p, k)`: the exponential of the logit less its row's maximum. -/
theorem pay1_at (y : Vec Ideal S256x256 .bf16) (x : Vec Ideal S16384x256 .bf16) (b : Vec Ideal S1x16384 .f32)
    (p : Fin 256) (k : Fin 16384) :
    k1_pay1 (F := Ideal) y x b (ix2 p k)
      = Ideal.exp (blockLogit y x b p k
          - (Finset.univ : Finset (Fin 16384)).fold max ⊥ (fun k' => blockLogit y x b p k')) := by
  show Ideal.exp (logitsVec y x b (ix2 p k)
      - broadcastTo S256x16384 (shapeCast S256x1
          (multiReduction .maximumf [1] S256 (logitsVec y x b) 0xFF800000#32 reduces_S256x16384_S256 (.inl rfl) rfl)
          shapeCasts_S256_S256x1) broadcasts_S256x1_S256x16384 (ix2 p k)) = _
  rw [broadcastTo_a1_ab_apply, shapeCast_a_a1_apply]
  refine congrArg Ideal.exp ?_
  refine congrArg₂ (· - ·) (logits_at y x b p k) ?_
  refine (rowMax_at (logitsVec y x b) _ _ _ p).trans ?_
  exact congrArg (Finset.univ.fold max ⊥) (funext fun k' => logits_at y x b p k')

/-- The second stored value at `(p, k)`, over any reloaded block `v`: its entry times the reciprocal of the row's
    sum of the first stored values. -/
theorem pay2_at_raw (y : Vec Ideal S256x256 .bf16) (x : Vec Ideal S16384x256 .bf16) (b : Vec Ideal S1x16384 .f32)
    (v : Vec Ideal S256x16384 .f32) (p : Fin 256) (k : Fin 16384) :
    k1_pay2 (F := Ideal) y x b v (ix2 p k)
      = v (ix2 p k) * Ideal.div 1 (∑ k' : Fin 16384, k1_pay1 (F := Ideal) y x b (ix2 p k')) := by
  show shapeCast S256x16384 v shapeCasts_S256x16384_S256x16384 (ix2 p k)
      * broadcastTo S256x16384 (divf (F := Ideal) (broadcast S256x1 (Scalar.ofBits (F := Ideal) .f32 0x3F800000#32))
          (shapeCast S256x1
            (multiReduction .add [1] S256 (k1_pay1 (F := Ideal) y x b) 0x00000000#32 reduces_S256x16384_S256 (.inl rfl) rfl)
            shapeCasts_S256_S256x1)) broadcasts_S256x1_S256x16384 (ix2 p k) = _
  rw [shapeCast_self, broadcastTo_a1_ab_apply, divf_apply, broadcast_apply, shapeCast_a_a1_apply]
  refine congrArg (v (ix2 p k) * ·) ?_
  exact congrArg₂ Ideal.div Cert.Softmax.ofBits_one_f32 (rowSum_at (k1_pay1 (F := Ideal) y x b) _ _ _ p)

/-- The second kernel body's stored value at `(p, k)`: the softmax of row `p` of the block's logits at key `k`. -/
theorem pay_softmax_at (y : Vec Ideal S256x256 .bf16) (x : Vec Ideal S16384x256 .bf16) (b : Vec Ideal S1x16384 .f32)
    (p : Fin 256) (k : Fin 16384) :
    k1_pay2 (F := Ideal) y x b (k1_pay1 (F := Ideal) y x b) (ix2 p k)
      = Ideal.exp (blockLogit y x b p k
          - (Finset.univ : Finset (Fin 16384)).fold max ⊥ (fun k' => blockLogit y x b p k'))
        * Ideal.div 1 (∑ k' : Fin 16384, Ideal.exp (blockLogit y x b p k'
          - (Finset.univ : Finset (Fin 16384)).fold max ⊥ (fun k'' => blockLogit y x b p k''))) := by
  rw [pay2_at_raw]
  simp only [pay1_at]

end Cert.KernelIdeal.Pay

end
-- ==== Proof.Region1.lean ====
/-
  What the second launch leaves in the result array.

  The second launch walks the eight blocks of 256 queries. At block `t` the body sees rows `256 t … 256 t + 255` of the
  narrowed queries, all the narrowed keys and the whole bias row, and leaves in its result block the softmax of each
  of its rows; the blocks tile the result array, so each entry of the array is the softmax entry of its own row.
-/
import proofs.«180964_g89026082111828_cont_sun_m_356_27_alg».proof.Proof.Gen.KernelIdeal.Frame
import proofs.«180964_g89026082111828_cont_sun_m_356_27_alg».proof.Proof.PaySoftmax
import proofs.«180964_g89026082111828_cont_sun_m_356_27_alg».proof.Proof.Spec
import Idealize.ShloMosaic.Lib.Pipeline.Value
import Idealize.ShloMosaic.Lib.ValueIdx

set_option maxRecDepth 16384

noncomputable section

namespace Cert.KernelIdeal.Out

open Cert.KernelIdeal Cert.KernelIdeal.Gen
open Idealize.ShloMosaic Idealize.ShloMosaic.TcCoe Idealize.SL.Sem Idealize.ShloMosaic.Tactic
open Idealize.ShloMosaic.Pipeline (Dat Cfg Window)
open Idealize.ShloMosaic.ValueIdx

/-- The zero offsets of a whole-buffer access, as a constant function. -/
theorem hz1 : (![0, 0] : Fin 2 → Nat) = fun _ => 0 := funext fun a => by fin_cases a <;> rfl

section AnyFloat
variable {F : FTy → Type} [FloatOps F] [Named F]

/-- The body's two stores into its result buffer, the second over the whole buffer and reading back what the first
    left: the buffer ends at the second stored value computed from the first. -/
theorem out1_piece (c : Dev nD) (i : grid1.Coords) (arg1 : Memref sig .tc .vmem S256x256 .bf16) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S256x16384 .f32) (harg4 : arg4.IsWhole)
    (x0 : Vec F S256x256 .bf16) (x1 : Vec F S16384x256 .bf16) (x2 : Vec F S1x16384 .f32) :
    out1_A_3 c i arg1 harg1 arg2 harg2 arg3 harg3 arg4 harg4 x0 x1 x2 = k1_pay2 x0 x1 x2 (k1_pay1 x0 x1 x2) := by
  unfold out1_A_3
  rw [View.read_writes_eq_canon _ _ _ (cover1_A_3 c i arg1 harg1 arg2 harg2 arg3 harg3 arg4 harg4 x0 x1 x2)]
  unfold kernelRun1_A
  dsimp only
  sl_unfold_words
  rw [View.canon_cons_unit_zero hz1, View.readCov_unit_zero _ hz1]
  simp only [View.readAt_eq_ld, harg1.read_unread, harg2.read_unread, harg3.read_unread,
    View.ld_unit_zero (S := S256x256) hz1, View.ld_unit_zero (S := S16384x256) hz1, View.ld_unit_zero (S := S1x16384) hz1]

variable (V : (c : Dev nD) → (b : Ref sig .tc) → Buf (Elt F) ((c : Thread nD τ).loc b))

/-- What point `t` writes back: the body's final stored value of the point's three input blocks. -/
theorem flushed1_eq (c : Dev nD) (t : Fin cfg1.N) :
    (dat1 V c).flushed 3 t
      = k1_pay2 (iblk1 V c 0 t) (iblk1 V c 1 t) (iblk1 V c 2 t) (k1_pay1 (iblk1 V c 0 t) (iblk1 V c 1 t) (iblk1 V c 2 t)) := by
  show (cfg1.win 3).cut (grid1.coords t) ((dat1 V c).after 3 t) = _
  rw [after1_3]
  unfold outsAt1
  exact out1_piece c _ _ _ _ _ _ _ _ _ _ _ _

end AnyFloat

/-- The block indices over the second launch's grid: the queries' block and the result's block move together along
    the rows and stay at column block zero; the keys' and the bias row's blocks stay at zero. -/
theorem idx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

section AtIdeal

variable (V : (c : Dev nD) → (b : Ref sig .tc) → Buf (Elt Ideal) ((c : Thread nD τ).loc b))
variable (X : Cert.Softmax.SX.Idx → EReal) (Y : Cert.Softmax.SY.Idx → EReal)

/-- The eight result blocks cover the result array: row `r` lies in block `r / 256`. -/
theorem cover1_out (i : S2048x16384.Idx) :
    ∃ t : Fin cfg1.N, (cfg1.win 3).flush t = true ∧ i ∈ ((cfg1.win 3).blk t).view.set := by
  have h0 : (i 0).val < 2048 := (i 0).isLt
  have h1 : (i 1).val < 16384 := (i 1).isLt
  have hN : grid1.N = 8 := N_1
  let t : Fin cfg1.N := ⟨(i 0).val / 256, by show (i 0).val / 256 < grid1.N; rw [hN]; omega⟩
  refine ⟨t, flush1_3 t, ?_⟩
  show i ∈ ((View.whole main_v1).slice (win1_3.rect t)).set
  rw [View.set_slice_whole, Rect.mem_set_unit]
  obtain ⟨-, -, -, -, -, -, e1, e0⟩ := idx1 t
  have ht : t.val = (i 0).val / 256 := rfl
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 16384 ≤ (i 1).val ∧ (i 1).val < win1_3.index t (1 : Fin 2) * 16384 + 16384; omega

/-- If the second launch finds the narrowed queries holding `Y`, the narrowed keys holding `X` and the bias row holding
    the keys' biases, it leaves the result array holding the kernel's form of the softmax map of `X` and `Y`. -/
theorem arr1_out (c : Dev nD)
    (hY : (V c main_v0_2 : S2048x256.Idx → EReal) = Y)
    (hX : (V c main_v0_1 : S16384x256.Idx → EReal) = X)
    (hB : ∀ (u : Fin 1) (k : Fin 16384), (V c main_v0_0 : S1x16384.Idx → EReal) (ix2 u k) = Cert.Softmax.bias X k) :
    (dat1 V c).arrAt 3 cfg1.N = Cert.Softmax.G X Y := by
  funext i
  refine (dat1 V c).arrAt_forall_of_cover 3 (fun i v => v = Cert.Softmax.G X Y i) ?_ cover1_out i
  intro t _ y
  show (dat1 V c).flushed 3 t y = Cert.Softmax.G X Y (((cfg1.win 3).blk t).view.emb y)
  obtain ⟨p, k, rfl⟩ : ∃ (p : Fin 256) (k : Fin 16384), y = ix2 p k := ⟨y 0, y 1, eq_ix2 y⟩
  rw [flushed1_eq]
  refine (Pay.pay_softmax_at _ _ _ p k).trans ?_
  obtain ⟨a00, a01, b00, b01, c00, c01, d01, d00⟩ := idx1 t
  have hp : p.val < 256 := p.isLt
  have hk : k.val < 16384 := k.isLt
  -- the three input blocks, entry by entry
  have eY : ∀ d : Fin 256, iblk1 V c 0 t (ix2 p d) = Y (ix2 ((((cfg1.win 3).blk t).view.emb (ix2 p k)) 0) d) := fun d => by
    show V c main_v0_2 (((cfg1.win 0).blk t).view.emb (ix2 p d)) = _
    refine (congrFun hY _).trans (congrArg Y (funext fun a => Fin.ext ?_))
    have hd : d.val < 256 := d.isLt
    match a with
    | ⟨0, _⟩ => show win1_0.index t (0 : Fin 2) * 256 + 1 * p.val = win1_3.index t (0 : Fin 2) * 256 + 1 * p.val; omega
    | ⟨1, _⟩ => show win1_0.index t (1 : Fin 2) * 256 + 1 * d.val = d.val; omega
  have eX : ∀ (k' : Fin 16384) (d : Fin 256), iblk1 V c 1 t (ix2 k' d) = X (ix2 k' d) := fun k' d => by
    show V c main_v0_1 (((cfg1.win 1).blk t).view.emb (ix2 k' d)) = _
    refine (congrFun hX _).trans (congrArg X (funext fun a => Fin.ext ?_))
    match a with
    | ⟨0, _⟩ => show win1_1.index t (0 : Fin 2) * 16384 + 1 * k'.val = k'.val; omega
    | ⟨1, _⟩ => show win1_1.index t (1 : Fin 2) * 256 + 1 * d.val = d.val; omega
  have eB : ∀ k' : Fin 16384, iblk1 V c 2 t (ix2 (0 : Fin 1) k') = Cert.Softmax.bias X k' := fun k' => by
    show V c main_v0_0 (((cfg1.win 2).blk t).view.emb (ix2 (0 : Fin 1) k')) = _
    refine Eq.trans (congrArg (V c main_v0_0) (funext fun a => Fin.ext ?_)) (hB 0 k')
    match a with
    | ⟨0, _⟩ => show win1_2.index t (0 : Fin 2) * 1 + 1 * 0 = 0; omega
    | ⟨1, _⟩ => show win1_2.index t (1 : Fin 2) * 16384 + 1 * k'.val = k'.val; omega
  have hl : ∀ k' : Fin 16384, Pay.blockLogit (iblk1 V c 0 t) (iblk1 V c 1 t) (iblk1 V c 2 t) p k'
      = Cert.Softmax.logit X Y ((((cfg1.win 3).blk t).view.emb (ix2 p k)) 0) k' := fun k' => by
    unfold Pay.blockLogit Cert.Softmax.logit Cert.Softmax.dotYX
    rw [eB k']
    exact congrArg (· * Cert.Softmax.cTwo + Cert.Softmax.bias X k') (Finset.sum_congr rfl fun d _ => by rw [eY d, eX k' d])
  have h1 : (((cfg1.win 3).blk t).view.emb (ix2 p k)) 1 = k := Fin.ext (by
    show win1_3.index t (1 : Fin 2) * 16384 + 1 * k.val = k.val; omega)
  unfold Cert.Softmax.G Cert.Softmax.rowMax
  simp only [hl, h1]

end AtIdeal

end Cert.KernelIdeal.Out

end
-- ==== Proof.PayBias.lean ====
/-
  The values the first kernel body stores, read at an index over the extended reals.

  A change of format is the identity on extended reals, so the stored narrow copies of the keys and of the queries
  are the keys and the queries. The stored bias of key k is a row of ones times the squares of the keys' entries
  plus a row of ones times the differences of each square with itself, contracted over the feature axis, times the
  constant -1/τ: each product with the row of ones is 1 · x = x, so the two contractions are the two sums over the
  features in the specification's bias.
-/
import proofs.«180964_g89026082111828_cont_sun_m_356_27_alg».proof.Proof.Gen.KernelIdeal.Skeleton
import proofs.«180964_g89026082111828_cont_sun_m_356_27_alg».proof.Proof.Spec
import Idealize.ShloMosaic.Lib.ValueIdx
import Idealize.ShloMosaic.PureOps.Ideal.Laws
import Idealize.ShloMosaic.PureOps.IdealRules

noncomputable section

open scoped BigOperators

namespace Cert.KernelIdeal.PayBias

open Cert.KernelIdeal Cert.KernelIdeal.Gen Idealize.ShloMosaic Idealize.ShloMosaic.ValueIdx

/-! ## The narrow copies -/

/-- The narrowed keys are the keys. -/
theorem pay_keys (X : Vec Ideal S16384x256 .f32) : k0_pay1 (F := Ideal) X = X := rfl

/-- The narrowed queries are the queries. -/
theorem pay_queries (Y : Vec Ideal S2048x256 .f32) : k0_pay2 (F := Ideal) Y = Y := rfl

/-! ## The operand indices of the contraction of a [1, 256] row with the [16384, 256] keys over the feature axis -/

/-- The row operand's kept axis reads the result's first coordinate. -/
theorem lhs_0 (i : S1x16384.Idx) (q : dot_S1x256_S16384x256_S1x16384_1_1_0_0_n_n.contr.Idx) :
    (dot_S1x256_S16384x256_S1x16384_1_1_0_0_n_n.lhsIdx i q 0).val = (i 0).val := by
  unfold DotDims.lhsIdx
  rw [dif_neg (show ¬(0 : Fin S1x256.rank) ∈ dot_S1x256_S16384x256_S1x16384_1_1_0_0_n_n.lhsBatch by decide),
    dif_pos (show (0 : Fin S1x256.rank) ∈ dot_S1x256_S16384x256_S1x16384_1_1_0_0_n_n.lhsNonContracting by decide)]
  rfl

/-- The row operand's contracted axis reads the contraction coordinate. -/
theorem lhs_1 (i : S1x16384.Idx) (q : dot_S1x256_S16384x256_S1x16384_1_1_0_0_n_n.contr.Idx) :
    (dot_S1x256_S16384x256_S1x16384_1_1_0_0_n_n.lhsIdx i q 1).val = (q ⟨0, by decide⟩).val :=
  dot_S1x256_S16384x256_S1x16384_1_1_0_0_n_n.lhsIdx_val_of_single rfl i q

/-- The keys' kept axis reads the result's second coordinate. -/
theorem rhs_0 (i : S1x16384.Idx) (q : dot_S1x256_S16384x256_S1x16384_1_1_0_0_n_n.contr.Idx) :
    (dot_S1x256_S16384x256_S1x16384_1_1_0_0_n_n.rhsIdx i q 0).val = (i 1).val := by
  unfold DotDims.rhsIdx
  rw [dif_neg (show ¬(0 : Fin S16384x256.rank) ∈ dot_S1x256_S16384x256_S1x16384_1_1_0_0_n_n.rhsBatch by decide),
    dif_pos (show (0 : Fin S16384x256.rank) ∈ dot_S1x256_S16384x256_S1x16384_1_1_0_0_n_n.rhsNonContracting by decide)]
  rfl

/-- The keys' contracted axis reads the contraction coordinate. -/
theorem rhs_1 (i : S1x16384.Idx) (q : dot_S1x256_S16384x256_S1x16384_1_1_0_0_n_n.contr.Idx) :
    (dot_S1x256_S16384x256_S1x16384_1_1_0_0_n_n.rhsIdx i q 1).val = (q ⟨0, by decide⟩).val :=
  dot_S1x256_S16384x256_S1x16384_1_1_0_0_n_n.rhsIdx_val_of_single rfl i q

/-- A row of ones contracted with an array over the feature axis, from a zero accumulator: at (u, k) the sum over the
    features of the array's row k. -/
theorem ones_matmul_at (v : FVec Ideal S16384x256 .bf16) (u : Fin 1) (k : Fin 16384) :
    matmul dot_S1x256_S16384x256_S1x16384_1_1_0_0_n_n none
        (broadcast S1x256 (Scalar.ofBits (F := Ideal) .bf16 0x3F80#16)) v (constant S1x16384 .f32 0x00000000#32) (ix2 u k)
      = ∑ d : Fin 256, v (ix2 k d) := by
  simp only [matmul]
  rw [Ideal.matmul_constant_zero_apply,
    ← Equiv.sum_comp (ValueIdx.contrEquiv1 dot_S1x256_S16384x256_S1x16384_1_1_0_0_n_n 256 rfl rfl).symm]
  refine Finset.sum_congr rfl fun d _ => ?_
  have hk := ValueIdx.contrEquiv1_symm_val dot_S1x256_S16384x256_S1x16384_1_1_0_0_n_n 256 rfl rfl d
  have er : dot_S1x256_S16384x256_S1x16384_1_1_0_0_n_n.rhsIdx (ix2 u k)
      ((ValueIdx.contrEquiv1 dot_S1x256_S16384x256_S1x16384_1_1_0_0_n_n 256 rfl rfl).symm d) = ix2 k d :=
    funext fun a => Fin.ext (by
      match a with
      | ⟨0, _⟩ => exact rhs_0 _ _
      | ⟨1, _⟩ => exact (rhs_1 _ _).trans hk)
  rw [er]
  show Ideal.ofBits .bf16 0x3F80#16 * v (ix2 k d) = v (ix2 k d)
  rw [Cert.Softmax.ofBits_one_bf16, one_mul]

/-! ## The bias -/

/-- The named constant -1/τ at the extended reals. -/
theorem named_neg :
    Named.named (F := Ideal) κ "c_neg_inv_tau" (φ := .f32) 0xC1649249#32 = Cert.Softmax.cNeg :=
  IdealRules.named_const.ideal_named_scalar κ "c_neg_inv_tau" _ _ rfl

/-- The stored bias at (u, k) is the specification's bias of key k. -/
theorem pay_bias_at (X : Vec Ideal S16384x256 .f32) (u : Fin 1) (k : Fin 16384) :
    k0_pay3 (F := Ideal) X (ix2 u k) = Cert.Softmax.bias X k := by
  have h1 := ones_matmul_at (truncf (F := Ideal) .bf16 (mulf X X) bitsLt_bf16_f32) u k
  have h2 := ones_matmul_at (truncf (F := Ideal) .bf16 (subf (mulf X X) (mulf X X)) bitsLt_bf16_f32) u k
  unfold k0_pay3
  refine (congrArg₂ (· * ·) (congrArg₂ (· + ·) h1 h2) named_neg).trans ?_
  rfl

end Cert.KernelIdeal.PayBias

end
-- ==== Proof.KernelValue.lean ====
/-
  The kernel program's result as one function of its two arguments.

  After the first launch the narrowed queries and keys hold the queries and keys themselves (a change of float format
  is the identity on the extended reals) and the bias row holds each key's bias; the second launch then leaves the
  kernel's form of the softmax map. So every weakly fair execution of the kernel program ends with the result array at
  `G X Y` of the argument arrays `X` (keys) and `Y` (queries), and the arguments unchanged.
-/
import proofs.«180964_g89026082111828_cont_sun_m_356_27_alg».proof.Proof.KernelRun
import proofs.«180964_g89026082111828_cont_sun_m_356_27_alg».proof.Proof.Region0
import proofs.«180964_g89026082111828_cont_sun_m_356_27_alg».proof.Proof.Region1
import proofs.«180964_g89026082111828_cont_sun_m_356_27_alg».proof.Proof.PayBias
import proofs.«180964_g89026082111828_cont_sun_m_356_27_alg».proof.Proof.Spec

set_option maxRecDepth 16384

noncomputable section

namespace Cert.KernelIdeal.Out

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (m : (ℓ : Loc nD τ sig) → Buf (Elt Ideal) ℓ) (ρ : Dev nD → PrngReg)

/-- Entering the second launch, the narrowed queries hold the queries. -/
theorem V1_queries (c : Dev nD) :
    (V1 m ρ c main_v0_2 : S2048x256.Idx → EReal) = m ((c.tc : Thread nD τ).loc main_arg1) :=
  ((W1_arr m ρ c 4).trans (arr0_queries (V0 m ρ) c)).trans (PayBias.pay_queries _)

/-- Entering the second launch, the narrowed keys hold the keys. -/
theorem V1_keys (c : Dev nD) :
    (V1 m ρ c main_v0_1 : S16384x256.Idx → EReal) = m ((c.tc : Thread nD τ).loc main_arg0) :=
  ((W1_arr m ρ c 3).trans (arr0_keys (V0 m ρ) c)).trans (PayBias.pay_keys _)

/-- Entering the second launch, the bias row holds each key's bias. -/
theorem V1_bias (c : Dev nD) (u : Fin 1) (k : Fin 16384) :
    (V1 m ρ c main_v0_0 : S1x16384.Idx → EReal) (ix2 u k)
      = Cert.Softmax.bias (m ((c.tc : Thread nD τ).loc main_arg0)) k :=
  (congrFun ((W1_arr m ρ c 2).trans (arr0_bias (V0 m ρ) c)) (ix2 u k)).trans (PayBias.pay_bias_at _ u k)

/-- The result array after both launches is the kernel's form of the softmax map of the arguments. -/
theorem W2_out (c : Dev nD) :
    W2 m ρ c (Proc.devRef .tc main_v1)
      = Cert.Softmax.G (m ((c.tc : Thread nD τ).loc main_arg0)) (m ((c.tc : Thread nD τ).loc main_arg1)) :=
  (W2_main_v1 m ρ c).trans
    (arr1_out (V1 m ρ) _ _ c (V1_queries m ρ c) (V1_keys m ρ c) (V1_bias m ρ c))

/-- Every weakly fair execution of the kernel program terminates, nothing faulting, with the result array at the
    kernel's form of the softmax map of the arguments and the arguments as launched. -/
theorem run_value : θ_run defs (onTc (τ := τ) (main (F := Ideal))) ⟨m, fun _ => 0, ρ⟩ (fun r => ∀ c : Dev nD,
      r.2.mem ((c.tc : Thread nD τ).loc main_v1)
        = Cert.Softmax.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (W2_out m ρ c), (h c).2⟩) (run (F := Ideal) m ρ)

end Cert.KernelIdeal.Out

end
-- ==== Proof.RefRead.lean ====
/-
  The reference program, read one element at a time, is the specification's reference form.

  Each stage of the reference is read at an index given by explicit coordinates: the inner product of a query
  and a key (through the transposed keys), the two squared norms broadcast along rows and columns, the logit
  minus the squared distance over the temperature, the row maximum as a fold of max over the keys, the shifted
  exponential, the row sum of the exponentials, and the final quotient.
-/
import proofs.«180964_g89026082111828_cont_sun_m_356_27_alg».proof.Proof.Gen.ReferenceIdeal.Read
import proofs.«180964_g89026082111828_cont_sun_m_356_27_alg».proof.Proof.Spec

noncomputable section

open scoped BigOperators

namespace Cert.Softmax.Ref

open Cert.ReferenceIdeal Cert.ReferenceIdeal.Gen Cert.ReferenceIdeal.Read Idealize.ShloMosaic
  Idealize.ShloMosaic.ValueIdx Cert.Softmax

/-- The keys and the queries as arrays of extended reals. -/
abbrev XT := (⟨S16384x256, .f32⟩ : BufTy).Contents (Elt Ideal)
abbrev YT := (⟨S2048x256, .f32⟩ : BufTy).Contents (Elt Ideal)

/-! ## The inner products -/

/-- The matrix product of the queries with the transposed keys, at (q, k), is the inner product of query q and key k. -/
theorem v10_at (X : XT) (Y : YT) (q : Fin 2048) (k : Fin 16384) :
    val_main_v10 (F := Ideal) X Y (ix2 q k) = dotYX X Y q k := by
  rw [val_main_v10_apply]
  unfold dotYX
  refine Finset.sum_congr rfl fun d _ => ?_
  rw [val_main_v9_apply]
  have e1 : lidx_main_v10 (ix2 q k) d = ix2 q d :=
    funext fun a => Fin.ext (by match a with | ⟨0, _⟩ => rfl | ⟨1, _⟩ => rfl)
  have e2 : idx_main_v9 (ridx_main_v10 (ix2 q k) d) = ix2 k d :=
    funext fun a => Fin.ext (by match a with | ⟨0, _⟩ => rfl | ⟨1, _⟩ => rfl)
  rw [e1, e2]

/-! ## The squared norms -/

/-- The row sums of the squared keys: the squared norm of key k, summed from 0. -/
theorem v1_at (X : XT) (k : Fin 16384) : val_main_v1 (F := Ideal) X (ix1 k) = sqX X k := by
  rw [val_main_v1_apply, val_main_cst_apply]
  unfold sqX
  rw [Ideal.ofBits_def, Ideal.ofBits_zero_f32]
  refine congrArg (0 + ·) (Finset.sum_congr rfl fun d _ => ?_)
  rw [val_main_v0_apply, Ideal.mulf_def]
  have e : idx_main_v1 (ix1 k) d = ix2 k d :=
    funext fun a => Fin.ext (by match a with | ⟨0, _⟩ => rfl | ⟨1, _⟩ => rfl)
  rw [e]

/-- The row sums of the squared queries: the squared norm of query q, summed from 0. -/
theorem v3_at (Y : YT) (q : Fin 2048) : val_main_v3 (F := Ideal) Y (ix1 q) = sqY Y q := by
  rw [val_main_v3_apply, val_main_cst_0_apply]
  unfold sqY
  rw [Ideal.ofBits_def, Ideal.ofBits_zero_f32]
  refine congrArg (0 + ·) (Finset.sum_congr rfl fun d _ => ?_)
  rw [val_main_v2_apply, Ideal.mulf_def]
  have e : idx_main_v3 (ix1 q) d = ix2 q d :=
    funext fun a => Fin.ext (by match a with | ⟨0, _⟩ => rfl | ⟨1, _⟩ => rfl)
  rw [e]

/-- The two broadcasts added: at (q, k) the squared norm of query q plus that of key k. -/
theorem v8_at (X : XT) (Y : YT) (q : Fin 2048) (k : Fin 16384) :
    val_main_v8 (F := Ideal) X Y (ix2 q k) = sqY Y q + sqX X k := by
  rw [val_main_v8_apply, Ideal.addf_def, val_main_v6_apply, val_main_v4_apply, val_main_v7_apply,
    val_main_v5_apply]
  have e1 : idx_main_v4 (idx_main_v6 (ix2 q k)) = ix1 q :=
    funext fun a => Fin.ext (by match a with | ⟨0, _⟩ => rfl)
  have e2 : idx_main_v5 (idx_main_v7 (ix2 q k)) = ix1 k :=
    funext fun a => Fin.ext (by match a with | ⟨0, _⟩ => rfl)
  rw [e1, e2, v3_at, v1_at]

/-! ## The logits -/

/-- The reference's logit at (q, k): minus (the two squared norms minus twice the inner product), over the temperature. -/
theorem v16_at (X : XT) (Y : YT) (q : Fin 2048) (k : Fin 16384) :
    val_main_v16 (F := Ideal) X Y (ix2 q k) = rlogit X Y q k := by
  rw [val_main_v16_apply, val_main_v14_apply, val_main_v13_apply, val_main_v12_apply, val_main_v15_apply,
    val_main_v11_apply, val_main_cst_1_apply, val_main_cst_2_apply, v8_at, v10_at]
  unfold rlogit
  simp only [Ideal.hostDivf_def, Ideal.hostNegf_def, Ideal.negf_def, Ideal.subf_def, Ideal.mulf_def,
    Ideal.ofBits_def, ofBits_two_f32, ofBits_tau_f32]

/-! ## The row maximum -/

/-- The shape fact naming the index a reduction over the keys' axis inserts. -/
theorem reduces_keys : S2048x16384.Reduces [1] S2048 := by decide

/-- A fold of the ideal maximum is a fold of max on the extended reals. -/
theorem fold_maximumf {n : Nat} (b : EReal) (f : Fin n → EReal) :
    (Finset.univ : Finset (Fin n)).fold (FloatOps.maximumf (F := Ideal) (φ := .f32)) b f
      = (Finset.univ : Finset (Fin n)).fold max b f := rfl

/-- The maximum over the keys' axis, at q: the fold of max from -∞ over the row's logits. -/
theorem v17_at (X : XT) (Y : YT) (q : Fin 2048) :
    val_main_v17 (F := Ideal) X Y (ix1 q)
      = (Finset.univ : Finset (Fin 16384)).fold max ⊥ (fun k => rlogit X Y q k) := by
  unfold val_main_v17
  rw [Host.reduce_eq_fold_single (FloatOps.maximumf (F := Ideal) (φ := .f32)) (val_main_v16 (F := Ideal) X Y)
    (val_main_cst_3 (F := Ideal)) reducesTo_S2048x16384_S2048_d1 reduces_keys h_S_ (ix1 q)]
  rw [val_main_cst_3_apply, Ideal.ofBits_def, ofBits_neg_inf_f32]
  have e : (val_main_v16 (F := Ideal) X Y ∘ reduces_keys.lift (ix1 q)) = fun k => rlogit X Y q k :=
    funext fun (k : Fin 16384) => by
      have ek : reduces_keys.lift (ix1 q) k = ix2 q k :=
        funext fun a => Fin.ext (by match a with | ⟨0, _⟩ => rfl | ⟨1, _⟩ => rfl)
      show val_main_v16 (F := Ideal) X Y (reduces_keys.lift (ix1 q) k) = rlogit X Y q k
      rw [ek]
      exact v16_at X Y q k
  rw [e]
  exact fold_maximumf _ _

/-- The reference's row maximum: max of -∞ and the fold. -/
theorem v19_at (X : XT) (Y : YT) (q : Fin 2048) :
    val_main_v19 (F := Ideal) X Y (ix1 q) = rrowMax X Y q := by
  rw [val_main_v19_apply, val_main_v18_apply, val_main_cst_4_apply, v17_at, Ideal.maximumf_def,
    Ideal.ofBits_def, ofBits_neg_inf_f32]
  rfl

/-! ## The exponentials and their row sums -/

/-- The shifted exponential at (q, k). -/
theorem v23_at (X : XT) (Y : YT) (q : Fin 2048) (k : Fin 16384) :
    val_main_v23 (F := Ideal) X Y (ix2 q k) = Ideal.exp (rlogit X Y q k - rrowMax X Y q) := by
  rw [val_main_v23_apply, val_main_v22_apply, val_main_v21_apply, val_main_v20_apply, v16_at]
  have e : idx_main_v20 (idx_main_v21 (ix2 q k)) = ix1 q :=
    funext fun a => Fin.ext (by match a with | ⟨0, _⟩ => rfl)
  rw [e, v19_at, Ideal.hostUnary_exp_def, Ideal.subf_def]

/-- The row sum of the exponentials, broadcast along the row: at (q, k) it is 0 plus the sum over the keys. -/
theorem v26_at (X : XT) (Y : YT) (q : Fin 2048) (k : Fin 16384) :
    val_main_v26 (F := Ideal) X Y (ix2 q k)
      = 0 + ∑ k' : Fin 16384, Ideal.exp (rlogit X Y q k' - rrowMax X Y q) := by
  rw [val_main_v26_apply, val_main_v25_apply, val_main_v24_apply, val_main_cst_5_apply, Ideal.ofBits_def,
    Ideal.ofBits_zero_f32]
  refine congrArg (0 + ·) (Finset.sum_congr rfl fun k' _ => ?_)
  have e : idx_main_v24 (idx_main_v25 (idx_main_v26 (ix2 q k))) k' = ix2 q k' :=
    funext fun a => Fin.ext (by match a with | ⟨0, _⟩ => rfl | ⟨1, _⟩ => rfl)
  rw [e, v23_at]

/-! ## The result -/

/-- The reference's result, read index by index, is the specification's reference form. -/
theorem val_eq_Gref (X : (⟨Cert.ReferenceIdeal.S16384x256, .f32⟩ : BufTy).Contents (Elt Ideal))
    (Y : (⟨Cert.ReferenceIdeal.S2048x256, .f32⟩ : BufTy).Contents (Elt Ideal)) :
    Cert.ReferenceIdeal.Read.val_main_v27 (F := Ideal) X Y = Cert.Softmax.Gref X Y := by
  funext i
  obtain ⟨q, k, rfl⟩ : ∃ (q : Fin 2048) (k : Fin 16384), i = ix2 q k := ⟨i 0, i 1, eq_ix2 i⟩
  rw [val_main_v27_apply, v23_at, v26_at, Ideal.hostDivf_def]
  rfl

end Cert.Softmax.Ref

end
-- ==== Proof.LibSoftmaxShift.lean ====
/-
  The shift-invariance of the softmax over the extended reals, for a row of real logits.

  Over a finite nonempty row of reals `a`, the fold of `max` from `-∞` is the row's largest value `M`;
  subtracting a constant `c` from every entry subtracts it from `M`, so the shifted entries `a k - M` do not change;
  the row's sum of exponentials is a positive real, and dividing by it is multiplying by its reciprocal. Hence the
  two usual spellings — `exp (a j - M) · (1 / Σ exp (a k - M))` with `M` a fold from `-∞`, and
  `exp (b j - M') / (0 + Σ exp (b k - M'))` with `M' = max (-∞) (fold)` and `b = a - c` — are the same extended real.
  Also: a finite sum of coerced reals is the coercion of the real sum.
-/
import Idealize.ShloMosaic.PureOps.Ideal

noncomputable section

open scoped BigOperators

namespace Cert.Softmax

open Idealize.ShloMosaic

/-! ## Finite sums of coerced reals -/

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The shift-invariance of the softmax, over an arbitrary finite nonempty row -/

section Abstract

variable {ι : Type*} [Fintype ι] [Nonempty ι]

/-- The largest value of a real family over a finite nonempty index set. -/
def rowSup (a : ι → ℝ) : ℝ := Finset.univ.sup' Finset.univ_nonempty a

/-- The softmax of a real family: each exponential, shifted by the largest value, times the reciprocal of
    the sum of them. -/
def smReal (a : ι → ℝ) (j : ι) : ℝ :=
  Real.exp (a j - rowSup a) * (1 / ∑ k, Real.exp (a k - rowSup a))

/-- The fold of `max` from `-∞` over a nonempty row of coerced reals is the coercion of the largest value. -/
theorem fold_max_coe (a : ι → ℝ) :
    (Finset.univ : Finset ι).fold max ⊥ (fun k => (a k : EReal)) = ((rowSup a : ℝ) : EReal) := by
  unfold rowSup
  apply le_antisymm
  · rw [Finset.fold_max_le]
    exact ⟨bot_le, fun k hk => EReal.coe_le_coe_iff.2 (Finset.le_sup' a hk)⟩
  · obtain ⟨k, hk, h⟩ := Finset.exists_mem_eq_sup' Finset.univ_nonempty a
    rw [h, Finset.le_fold_max]
    exact Or.inr ⟨k, hk, le_rfl⟩

/-- Subtracting a constant from every entry subtracts it from the largest value. -/
theorem rowSup_sub (a : ι → ℝ) (c : ℝ) : rowSup (fun k => a k - c) = rowSup a - c := by
  unfold rowSup
  exact (Finset.comp_sup'_eq_sup'_comp Finset.univ_nonempty (fun t => t - c)
    (fun s t => (max_sub_sub_right s t c).symm)).symm

/-- The softmax does not change when a constant is subtracted from every entry. -/
theorem smReal_sub (a : ι → ℝ) (c : ℝ) (j : ι) : smReal (fun k => a k - c) j = smReal a j := by
  unfold smReal
  rw [rowSup_sub]
  have h : ∀ k, a k - c - (rowSup a - c) = a k - rowSup a := fun k => by ring
  simp only [h]

/-- A nonempty finite sum of exponentials is not zero (it is positive). -/
theorem sumExp_ne_zero (a : ι → ℝ) (m : ℝ) : (∑ k, Real.exp (a k - m)) ≠ 0 :=
  (Finset.sum_pos (fun k _ => Real.exp_pos _) Finset.univ_nonempty).ne'

/-- The kernel's spelling of the softmax of a row of coerced reals is the coercion of the real softmax. -/
theorem kernel_form (a : ι → ℝ) (j : ι) :
    Ideal.exp ((a j : EReal) - Finset.univ.fold max ⊥ (fun k => (a k : EReal)))
      * Ideal.div 1 (∑ k, Ideal.exp ((a k : EReal) - Finset.univ.fold max ⊥ (fun k => (a k : EReal))))
    = ((smReal a j : ℝ) : EReal) := by
  rw [fold_max_coe]
  simp only [← EReal.coe_sub, Ideal.exp_coe]
  rw [coe_finset_sum, Ideal.div_coe (sumExp_ne_zero a _), one_mul, ← EReal.coe_mul]
  rfl

/-- The reference's spelling of the softmax of a row of coerced reals is the coercion of the real softmax. -/
theorem ref_form (b : ι → ℝ) (j : ι) :
    Ideal.div (Ideal.exp ((b j : EReal) - max ⊥ (Finset.univ.fold max ⊥ (fun k => (b k : EReal)))))
      (0 + ∑ k, Ideal.exp ((b k : EReal) - max ⊥ (Finset.univ.fold max ⊥ (fun k => (b k : EReal)))))
    = ((smReal b j : ℝ) : EReal) := by
  rw [fold_max_coe, max_bot_left, zero_add]
  simp only [← EReal.coe_sub, Ideal.exp_coe]
  rw [coe_finset_sum, Ideal.div_coe (sumExp_ne_zero b _), ← EReal.coe_mul]
  rfl

/-- The two spellings agree when the reference's row is the kernel's row minus a constant. -/
theorem softmax_shift (a : ι → ℝ) (c : ℝ) (j : ι) :
    Ideal.div (Ideal.exp (((a j - c : ℝ) : EReal)
        - max ⊥ (Finset.univ.fold max ⊥ (fun k => ((a k - c : ℝ) : EReal)))))
      (0 + ∑ k, Ideal.exp (((a k - c : ℝ) : EReal)
        - max ⊥ (Finset.univ.fold max ⊥ (fun k => ((a k - c : ℝ) : EReal)))))
    = Ideal.exp ((a j : EReal) - Finset.univ.fold max ⊥ (fun k => (a k : EReal)))
      * Ideal.div 1 (∑ k, Ideal.exp ((a k : EReal) - Finset.univ.fold max ⊥ (fun k => (a k : EReal)))) := by
  rw [kernel_form a j, ← smReal_sub a c j]
  exact ref_form (fun k => a k - c) j

end Abstract

end Cert.Softmax

end
-- ==== Proof.SoftmaxLaw.lean ====
/-
  The softmax law: on real (finite) inputs the reference's form and the kernel's form of the softmax agree.

  With real entries every sum of products is a real number, so the kernel's logit of query `q` against key `k`
  is the real `a q k = (Y_q · X_k) · (2/τ) + ‖X_k‖² · (-1/τ)` and the reference's logit is `a q k - c q` with
  `c q = ‖Y_q‖² / τ`, a constant along the row.  The fold of `max` from `-∞` over a nonempty finite row of
  reals is the row's largest value `M`, and subtracting a constant from every entry subtracts it from `M`; so
  both forms exponentiate the same reals `a q k - M`, the row's sum of exponentials is a positive real, and
  dividing by it is multiplying by its reciprocal.
-/
import proofs.«180964_g89026082111828_cont_sun_m_356_27_alg».proof.Proof.Spec
import proofs.«180964_g89026082111828_cont_sun_m_356_27_alg».proof.Proof.LibSoftmaxShift

noncomputable section

open scoped BigOperators

namespace Cert.Softmax

open Idealize.ShloMosaic Idealize.ShloMosaic.ValueIdx

/-! ## The two logits on real inputs -/

/-- The real inner product of query `q` and key `k`, and the real squared norms. -/
def dotR (x : SX.Idx → ℝ) (y : SY.Idx → ℝ) (q : Fin 2048) (k : Fin 16384) : ℝ :=
  ∑ d : Fin 256, y (ix2 q d) * x (ix2 k d)
def sqXR (x : SX.Idx → ℝ) (k : Fin 16384) : ℝ := ∑ d : Fin 256, x (ix2 k d) * x (ix2 k d)
def sqYR (y : SY.Idx → ℝ) (q : Fin 2048) : ℝ := ∑ d : Fin 256, y (ix2 q d) * y (ix2 q d)

/-- The kernel's real logit `(Y_q · X_k) · (2/τ) + ‖X_k‖² · (-1/τ)`. -/
def aR (x : SX.Idx → ℝ) (y : SY.Idx → ℝ) (q : Fin 2048) (k : Fin 16384) : ℝ :=
  dotR x y q k * (268435456 / 9395241) + sqXR x k * (-134217728 / 9395241)

/-- The term the kernel drops, constant along a row: `‖Y_q‖² / τ`. -/
def cR (y : SY.Idx → ℝ) (q : Fin 2048) : ℝ := sqYR y q * (134217728 / 9395241)

theorem dotYX_coe (x : SX.Idx → ℝ) (y : SY.Idx → ℝ) (q : Fin 2048) (k : Fin 16384) :
    dotYX (fun i => (x i : EReal)) (fun i => (y i : EReal)) q k = ((dotR x y q k : ℝ) : EReal) := by
  unfold dotYX dotR
  rw [← coe_finset_sum]
  exact Finset.sum_congr rfl (fun d _ => (EReal.coe_mul _ _).symm)

theorem sqX_sum_coe (x : SX.Idx → ℝ) (k : Fin 16384) :
    (∑ d : Fin 256, (fun i => (x i : EReal)) (ix2 k d) * (fun i => (x i : EReal)) (ix2 k d))
      = ((sqXR x k : ℝ) : EReal) := by
  unfold sqXR
  rw [← coe_finset_sum]
  exact Finset.sum_congr rfl (fun d _ => (EReal.coe_mul _ _).symm)

theorem sqX_coe (x : SX.Idx → ℝ) (k : Fin 16384) :
    sqX (fun i => (x i : EReal)) k = ((sqXR x k : ℝ) : EReal) := by
  unfold sqX
  rw [zero_add]
  exact sqX_sum_coe x k

theorem sqY_coe (y : SY.Idx → ℝ) (q : Fin 2048) :
    sqY (fun i => (y i : EReal)) q = ((sqYR y q : ℝ) : EReal) := by
  unfold sqY sqYR
  rw [zero_add, ← coe_finset_sum]
  exact Finset.sum_congr rfl (fun d _ => (EReal.coe_mul _ _).symm)

/-- On reals each square minus itself is zero, so the kernel's bias is the squared norm times `-1/τ`. -/
theorem bias_coe (x : SX.Idx → ℝ) (k : Fin 16384) :
    bias (fun i => (x i : EReal)) k = ((sqXR x k * (-134217728 / 9395241) : ℝ) : EReal) := by
  have h2 : (∑ d : Fin 256, ((fun i => (x i : EReal)) (ix2 k d) * (fun i => (x i : EReal)) (ix2 k d)
      - (fun i => (x i : EReal)) (ix2 k d) * (fun i => (x i : EReal)) (ix2 k d))) = 0 :=
    Finset.sum_eq_zero (fun d _ => by
      show ((x (ix2 k d) : EReal) * (x (ix2 k d) : EReal) - (x (ix2 k d) : EReal) * (x (ix2 k d) : EReal)) = 0
      rw [← EReal.coe_mul, ← EReal.coe_sub, sub_self, EReal.coe_zero])
  unfold bias cNeg
  rw [h2, add_zero, sqX_sum_coe, ← EReal.coe_mul]

theorem logit_coe (x : SX.Idx → ℝ) (y : SY.Idx → ℝ) (q : Fin 2048) (k : Fin 16384) :
    logit (fun i => (x i : EReal)) (fun i => (y i : EReal)) q k = ((aR x y q k : ℝ) : EReal) := by
  unfold logit cTwo aR
  rw [dotYX_coe, bias_coe, ← EReal.coe_mul, ← EReal.coe_add]

theorem two_coe : (2 : EReal) = ((2 : ℝ) : EReal) := rfl

theorem rlogit_coe (x : SX.Idx → ℝ) (y : SY.Idx → ℝ) (q : Fin 2048) (k : Fin 16384) :
    rlogit (fun i => (x i : EReal)) (fun i => (y i : EReal)) q k
      = ((aR x y q k - cR y q : ℝ) : EReal) := by
  have hτ : (9395241 / 134217728 : ℝ) ≠ 0 := by norm_num
  unfold rlogit tau
  rw [Ideal.div_coe hτ, sqX_coe, sqY_coe, dotYX_coe, two_coe, ← EReal.coe_mul, ← EReal.coe_add,
    ← EReal.coe_sub, ← EReal.coe_neg, ← EReal.coe_mul]
  congr 1
  unfold aR cR
  ring

/-! ## The law -/

/-- The law at one row `q` and one key `k`: the reference's row is the kernel's row minus `c q`. -/
theorem Gref_eq_G_at (x : SX.Idx → ℝ) (y : SY.Idx → ℝ) (q : Fin 2048) (k : Fin 16384) :
    Ideal.div
        (Ideal.exp (rlogit (fun i => (x i : EReal)) (fun i => (y i : EReal)) q k
          - rrowMax (fun i => (x i : EReal)) (fun i => (y i : EReal)) q))
        (0 + ∑ k' : Fin 16384,
          Ideal.exp (rlogit (fun i => (x i : EReal)) (fun i => (y i : EReal)) q k'
            - rrowMax (fun i => (x i : EReal)) (fun i => (y i : EReal)) q))
      = Ideal.exp (logit (fun i => (x i : EReal)) (fun i => (y i : EReal)) q k
          - rowMax (fun i => (x i : EReal)) (fun i => (y i : EReal)) q)
        * Ideal.div 1 (∑ k' : Fin 16384,
          Ideal.exp (logit (fun i => (x i : EReal)) (fun i => (y i : EReal)) q k'
            - rowMax (fun i => (x i : EReal)) (fun i => (y i : EReal)) q)) := by
  unfold rowMax rrowMax
  simp only [logit_coe, rlogit_coe]
  exact softmax_shift (aR x y q) (cR y q) k

/-- On real inputs the reference's form and the kernel's form of the softmax are the same function. -/
theorem Gref_eq_G (x : SX.Idx → ℝ) (y : SY.Idx → ℝ) :
    Gref (fun i => (x i : EReal)) (fun i => (y i : EReal))
      = G (fun i => (x i : EReal)) (fun i => (y i : EReal)) := by
  funext i
  exact Gref_eq_G_at x y (i 0) (i 1)

end Cert.Softmax

end
-- ==== Proof.Finite.lean ====
/-
  From the precondition to real entries.

  The precondition says that every entry of the keys and of the queries has absolute value below +∞. Over the
  extended reals the absolute value of x is max x (-x), which is +∞ at both infinities, so every entry is a real
  number, and the two arrays are the coercions of arrays of reals.
-/
import proofs.«180964_g89026082111828_cont_sun_m_356_27_alg».proof.Proof.Gen.Pre_finite_inputs
import proofs.«180964_g89026082111828_cont_sun_m_356_27_alg».proof.Proof.Spec
import Idealize.ShloMosaic.Lib.ReduceAll
import Idealize.ShloMosaic.Lib.ValueIdx

noncomputable section

namespace Cert.Softmax.Finite

open Idealize.ShloMosaic Idealize.ShloMosaic.ValueIdx

/-- The scalar shape has one index. -/
instance subsingleton_scalar_idx : Subsingleton Cert.Pre_finite_inputs.S_.Idx :=
  ⟨fun a b => funext fun d => d.elim0⟩

/-- The f32 word of +∞ is the extended real ⊤. -/
theorem ofBits_pos_inf_f32 : Ideal.ofBits .f32 0x7F800000#32 = ⊤ := by
  simp [Ideal.ofBits, Ideal.ieee]

/-- An extended real whose absolute value compares below +∞ is a real number: at ⊥ and at ⊤ the absolute
    value max x (-x) is ⊤. -/
theorem real_of_abs_lt (x : EReal)
    (h : Ideal.cmp .olt (max x (-x)) (Ideal.ofBits .f32 0x7F800000#32) = 1#1) : ∃ r : ℝ, x = (r : EReal) := by
  rw [ofBits_pos_inf_f32] at h
  induction x using EReal.rec with
  | bot => exfalso; simp [Ideal.cmp] at h
  | coe r => exact ⟨r, rfl⟩
  | top => exfalso; simp [Ideal.cmp] at h

/-- Under the precondition the keys and the queries are arrays of real numbers. -/
theorem real_of_pre [Cert.Pre_finite_inputs.Facts]
    (X : (⟨Cert.Pre_finite_inputs.S16384x256, .f32⟩ : BufTy).Contents (Elt Ideal))
    (Y : (⟨Cert.Pre_finite_inputs.S2048x256, .f32⟩ : BufTy).Contents (Elt Ideal))
    (h : Cert.Pre_finite_inputs.fn (F := Ideal) X Y = (fun _ => 1#1)) :
    (∃ x : Cert.Softmax.SX.Idx → ℝ, X = fun i => (x i : EReal))
      ∧ (∃ y : Cert.Softmax.SY.Idx → ℝ, Y = fun i => (y i : EReal)) := by
  have h0 := congrFun h ix0
  dsimp only [Cert.Pre_finite_inputs.fn] at h0
  obtain ⟨hx, hy⟩ := IntOp.andi_eq_one.1 h0
  have hX := Host.reduce_andi_all _ _ _ _ _ hx
  have hY := Host.reduce_andi_all _ _ _ _ _ hy
  have rX : ∀ i, ∃ r : ℝ, X i = (r : EReal) := fun i => real_of_abs_lt (X i) (hX i)
  have rY : ∀ i, ∃ r : ℝ, Y i = (r : EReal) := fun i => real_of_abs_lt (Y i) (hY i)
  choose x hx' using rX
  choose y hy' using rY
  exact ⟨⟨x, funext hx'⟩, ⟨y, funext hy'⟩⟩

end Cert.Softmax.Finite

end
-- ==== Proof.lean ====
/-
  The certificate of the fused softmax-distance-map kernel against its jnp reference.

  Both programs compute, for keys `X : [16384, 256]` and queries `Y : [2048, 256]`, the row-stochastic map
  `P[q, k] = softmax_k (-‖Y_q - X_k‖² / τ)`, with `τ` the binary fraction the reference divides by. The kernel drops
  the term `‖Y_q‖² / τ`, constant along each row, and scales by the named constants `2/τ` and `-1/τ`; over real inputs
  the two logits differ by a constant along each row and the softmax does not see such a shift (SoftmaxLaw.lean).

  * The three frames: the two kernel programs' are the generated frames of their two launches; the reference's is
    its generated run with the result dropped.
  * `preserves`: the ledger's three entries — a narrowing followed by its widening is the identity on the
    extended reals, and the two named constants denote the table's rationals.
  * `algebraic`: the kernel program ends with its result at `G X Y` (KernelValue.lean: the first launch leaves
    the narrowed arguments and the keys' biases, the second the softmax of each row of each block); the reference
    ends with its result at `Gref X Y` (RefRead.lean over the generated run); the precondition makes `X` and `Y`
    arrays of reals (Finite.lean), on which `Gref = G`.
-/
import proofs.«180964_g89026082111828_cont_sun_m_356_27_alg».proof.Defs
import proofs.«180964_g89026082111828_cont_sun_m_356_27_alg».proof.Proof.Gen.Kernel
import proofs.«180964_g89026082111828_cont_sun_m_356_27_alg».proof.Proof.Gen.Kernel.Skeleton
import proofs.«180964_g89026082111828_cont_sun_m_356_27_alg».proof.Proof.Gen.Kernel.Launch
import proofs.«180964_g89026082111828_cont_sun_m_356_27_alg».proof.Proof.Gen.Kernel.Points
import proofs.«180964_g89026082111828_cont_sun_m_356_27_alg».proof.Proof.Gen.Kernel.Frame
import proofs.«180964_g89026082111828_cont_sun_m_356_27_alg».proof.Proof.Gen.KernelIdeal
import proofs.«180964_g89026082111828_cont_sun_m_356_27_alg».proof.Proof.Gen.KernelIdeal.Skeleton
import proofs.«180964_g89026082111828_cont_sun_m_356_27_alg».proof.Proof.Gen.KernelIdeal.Launch
import proofs.«180964_g89026082111828_cont_sun_m_356_27_alg».proof.Proof.Gen.KernelIdeal.Points
import proofs.«180964_g89026082111828_cont_sun_m_356_27_alg».proof.Proof.Gen.KernelIdeal.Frame
import proofs.«180964_g89026082111828_cont_sun_m_356_27_alg».proof.Proof.Gen.ReferenceIdeal
import proofs.«180964_g89026082111828_cont_sun_m_356_27_alg».proof.Proof.Gen.Pre_finite_inputs
import proofs.«180964_g89026082111828_cont_sun_m_356_27_alg».proof.Proof.Gen.ReferenceIdeal.Run
import proofs.«180964_g89026082111828_cont_sun_m_356_27_alg».proof.Proof.Gen.ReferenceIdeal.Read
import proofs.«180964_g89026082111828_cont_sun_m_356_27_alg».proof.Proof.KernelValue
import proofs.«180964_g89026082111828_cont_sun_m_356_27_alg».proof.Proof.RefRead
import proofs.«180964_g89026082111828_cont_sun_m_356_27_alg».proof.Proof.SoftmaxLaw
import proofs.«180964_g89026082111828_cont_sun_m_356_27_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's three entries: the narrowing and widening of the squares is the identity on the extended reals;
    the constant `-1/τ` and the constant `2/τ` denote the rationals the table gives them. -/
theorem preserves : Cert.preserves_Kernel_KernelIdeal :=
  ⟨IdealRules.truncf_extf.statement _ .f32 .bf16,
   IdealRules.named_const.statement Cert.KernelIdeal.κ "c_neg_inv_tau" .f32 0xC1649249#32 ((-134217728 / 9395241 : ℝ) : EReal) rfl,
   IdealRules.named_const.statement Cert.KernelIdeal.κ "c_two_inv_tau" .f32 0x41E49249#32 ((268435456 / 9395241 : ℝ) : EReal) rfl⟩

/-- From memories agreeing on finite arguments both idealized programs end with the same result: the kernel's at
    `G X Y`, the reference's at `Gref X Y`, and the two forms agree on arrays of reals. -/
theorem algebraic : Cert.algebraic_KernelIdeal_ReferenceIdeal := by
  intro m ρ m' ρ' hpre hagree
  refine ⟨fun c => Cert.Softmax.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Out.run_value m ρ, ?_⟩
  refine (θ_run Cert.ReferenceIdeal.defs _ _).mono (fun _ h c => ⟨(h c).1.trans ?_, (h c).2⟩)
    (Cert.ReferenceIdeal.Value.run (F := Ideal) m' ρ')
  obtain ⟨⟨x, hx⟩, ⟨y, hy⟩⟩ := Cert.Softmax.Finite.real_of_pre _ _ (hpre c)
  refine (Cert.ReferenceIdeal.Read.val_main_v27_eq m' c).trans ?_
  refine (Cert.Softmax.Ref.val_eq_Gref _ _).trans ?_
  show Cert.Softmax.Gref (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    = Cert.Softmax.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
  have e0 := (hagree c).1
  have e1 := (hagree c).2
  exact (congrArg₂ Cert.Softmax.Gref (e0.trans hx) (e1.trans hy)).trans
    ((Cert.Softmax.Gref_eq_G x y).trans (congrArg₂ Cert.Softmax.G hx hy).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
